-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x768 : Shape := ⟨2, ![32768, 768]⟩
abbrev S64x768 : Shape := ⟨2, ![64, 768]⟩
abbrev S64 : Shape := ⟨1, ![64]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S64x768 : S_.BroadcastsInDim S64x768 (![] : Fin 0 → Fin S64x768.rank)
  reducesTo_S64x768_S_d0_1 : S64x768.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S32768x768 .f32) (main_arg1 : FVec F S64x768 .f32) (main_arg2 : FVec F S64 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S32768x768 : Shape := ⟨2, ![32768, 768]⟩
abbrev S64x768 : Shape := ⟨2, ![64, 768]⟩
abbrev S64 : Shape := ⟨1, ![64]⟩
abbrev S64x1 : Shape := ⟨2, ![64, 1]⟩
abbrev S64x32768 : Shape := ⟨2, ![64, 32768]⟩
abbrev S4096x768 : Shape := ⟨2, ![4096, 768]⟩
abbrev S64x4096 : Shape := ⟨2, ![64, 4096]⟩
abbrev S4096 : Shape := ⟨1, ![4096]⟩
abbrev S1x4096 : Shape := ⟨2, ![1, 4096]⟩
abbrev S32768x64 : Shape := ⟨2, ![32768, 64]⟩

abbrev nBuf : Space → Nat
  | .hbm => 8
  | .vmem => 8
  | .smem => 0
  | _ => 0

abbrev bufTy : (tb : Table) → Fin (tcTables nBuf tb) → BufTy
  | .hbm, ⟨0, _⟩ => ⟨S32768x768, .f32⟩
  | .hbm, ⟨1, _⟩ => ⟨S64x768, .f32⟩
  | .hbm, ⟨2, _⟩ => ⟨S64, .f32⟩
  | .hbm, ⟨3, _⟩ => ⟨S64x1, .f32⟩
  | .hbm, ⟨4, _⟩ => ⟨S64x32768, .f32⟩
  | .hbm, ⟨5, _⟩ => ⟨S64x32768, .f32⟩
  | .hbm, ⟨6, _⟩ => ⟨S32768x64, .f32⟩
  | .hbm, ⟨7, _⟩ => ⟨S32768x64, .f32⟩
  | .local _ .vmem, ⟨0, _⟩ => ⟨S4096x768, .f32⟩
  | .local _ .vmem, ⟨1, _⟩ => ⟨S4096x768, .f32⟩
  | .local _ .vmem, ⟨2, _⟩ => ⟨S64x768, .f32⟩
  | .local _ .vmem, ⟨3, _⟩ => ⟨S64x1, .f32⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64_S64x1 : S64.ShapeCasts S64x1
  inb_S4096x768_S4096x768_0_0 : ∀ a, (![0, 0] : Fin 2 → Nat) a + S4096x768.size a ≤ S4096x768.size a
  h_S4096x768 : 0 < S4096x768.numel
  inb_S64x768_S64x768_0_0 : ∀ a, (![0, 0] : Fin 2 → Nat) a + S64x768.size a ≤ S64x768.size a
  h_S64x768 : 0 < S64x768.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x4096 : S64x1.Broadcasts S64x4096
  inb_S64x4096_S64x4096_0_0 : ∀ a, (![0, 0] : Fin 2 → Nat) a + S64x4096.size a ≤ S64x4096.size a
  h_S64x4096 : 0 < S64x4096.numel
  reduces_S64x4096_S4096 : S64x4096.Reduces [0] S4096
  shapeCasts_S4096_S1x4096 : S4096.ShapeCasts S1x4096
  broadcasts_S1x4096_S64x4096 : S1x4096.Broadcasts S64x4096
  transposes_S64x32768_S32768x64_1_0 : S64x32768.Transposes [1, 0] S32768x64
  dot_S64x768_S4096x768_S64x4096_1_1_0_0_n_n_wf : DotDims.WF S64x768 S4096x768 S64x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x768.size a ≤ S32768x768.size a
  hwx0_0 : ∀ i : grid0.Coords, EltTy.bits .f32 = 32 ∨ (Rect.block (s := S32768x768) S4096x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x768.size a ≤ S64x768.size a
  hwx0_1 : ∀ i : grid0.Coords, EltTy.bits .f32 = 32 ∨ (Rect.block (s := S64x768) S64x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x4096.size a ≤ S64x32768.size a
  hwx0_3 : ∀ i : grid0.Coords, EltTy.bits .f32 = 32 ∨ (Rect.block (s := S64x32768) S64x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x4096.size a ≤ S64x32768.size a
  hwx0_4 : ∀ i : grid0.Coords, EltTy.bits .f32 = 32 ∨ (Rect.block (s := S64x32768) S64x4096.size (cc0_transform_4 i) (hinb0_4 i)).WholeWords (EltTy.packing .f32)

variable [Facts₀]

def dot_S64x768_S4096x768_S64x4096_1_1_0_0_n_n : DotDims S64x768 S4096x768 S64x4096 where
  lhsContracting := [1]
  rhsContracting := [1]
  lhsNonContracting := [0]
  rhsNonContracting := [0]
  lhsBatch := []
  rhsBatch := []
  wf := dot_S64x768_S4096x768_S64x4096_1_1_0_0_n_n_wf

abbrev win0_0 : Pipeline.Window sig grid0 :=
  Pipeline.Window.ofSpec (Memref.whole main_arg0) S4096x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S64x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S64x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x768 : Shape := ⟨2, ![32768, 768]⟩
abbrev S64x768 : Shape := ⟨2, ![64, 768]⟩
abbrev S64 : Shape := ⟨1, ![64]⟩
abbrev S768x64 : Shape := ⟨2, ![768, 64]⟩
abbrev S32768x64 : Shape := ⟨2, ![32768, 64]⟩
abbrev S1x64 : Shape := ⟨2, ![1, 64]⟩
abbrev S_ : Shape := ⟨0, ![]⟩
abbrev S32768 : Shape := ⟨1, ![32768]⟩
abbrev S32768x1 : Shape := ⟨2, ![32768, 1]⟩

abbrev nBuf : Space → Nat
  | .hbm => 22
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S64x768, .f32⟩
  | .hbm, ⟨2, _⟩ => ⟨S64, .f32⟩
  | .hbm, ⟨3, _⟩ => ⟨S768x64, .f32⟩
  | .hbm, ⟨4, _⟩ => ⟨S32768x64, .f32⟩
  | .hbm, ⟨5, _⟩ => ⟨S1x64, .f32⟩
  | .hbm, ⟨6, _⟩ => ⟨S32768x64, .f32⟩
  | .hbm, ⟨7, _⟩ => ⟨S32768x64, .f32⟩
  | .hbm, ⟨8, _⟩ => ⟨S_, .f32⟩
  | .hbm, ⟨9, _⟩ => ⟨S32768, .f32⟩
  | .hbm, ⟨10, _⟩ => ⟨S_, .f32⟩
  | .hbm, ⟨11, _⟩ => ⟨S32768, .f32⟩
  | .hbm, ⟨12, _⟩ => ⟨S32768, .f32⟩
  | .hbm, ⟨13, _⟩ => ⟨S32768x1, .f32⟩
  | .hbm, ⟨14, _⟩ => ⟨S32768x64, .f32⟩
  | .hbm, ⟨15, _⟩ => ⟨S32768x64, .f32⟩
  | .hbm, ⟨16, _⟩ => ⟨S32768x64, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S32768x64, .f32⟩
  | .hbm, ⟨21, _⟩ => ⟨S32768x64, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S64x768_S768x64_1_0 : S64x768.Transposes [1, 0] S768x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  reducesTo_S32768x64_S32768_d1 : S32768x64.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  dot_S32768x768_S768x64_S32768x64_1_0_0_1_n_n_wf : DotDims.WF S32768x768 S768x64 S32768x64 [1] [0] [0] [1] [] []

variable [Facts₀]

def dot_S32768x768_S768x64_S32768x64_1_0_0_1_n_n : DotDims S32768x768 S768x64 S32768x64 where
  lhsContracting := [1]
  rhsContracting := [0]
  lhsNonContracting := [0]
  rhsNonContracting := [1]
  lhsBatch := []
  rhsBatch := []
  wf := dot_S32768x768_S768x64_S32768x64_1_0_0_1_n_n_wf

class Facts : Prop extends Facts₀ where

variable [Facts]
-- ==== Proof.Spec.lean ====
/-
  A mixture-of-experts router, as one function of its three arguments.

  For 32768 tokens of width 768, 64 experts with a weight row of width 768 each and a bias each:
  the logit of token `n` for expert `e` is the inner product of the token with the expert's row plus the
  expert's bias; the probability is the softmax of the token's 64 logits, written the numerically shifted way:
  `exp (l - top) / Σ exp (l - top)` with `top` the largest of the token's logits. Everything is read on the
  extended reals, every operation the exact one; the largest logit is the fold of `max` from `-∞`.
-/
import Idealize.ShloMosaic.PureOps.Ideal
import Idealize.ShloMosaic.Lib.ValueIdx

noncomputable section

namespace Cert.Router

open Idealize.ShloMosaic Idealize.ShloMosaic.ValueIdx

/-- The tokens, one row each. -/
abbrev Tokens : Shape := ⟨2, ![32768, 768]⟩
/-- The experts' weight rows. -/
abbrev Weights : Shape := ⟨2, ![64, 768]⟩
/-- The experts' biases. -/
abbrev Bias : Shape := ⟨1, ![64]⟩
/-- One score per token and expert. -/
abbrev Scores : Shape := ⟨2, ![32768, 64]⟩

variable (x : Tokens.Idx → EReal) (w : Weights.Idx → EReal) (b : Bias.Idx → EReal)

/-- The logit of token `n` for expert `e`: `Σ_k x[n,k] · w[e,k] + b[e]`. -/
def logit (n : Fin 32768) (e : Fin 64) : EReal := (∑ k : Fin 768, x (ix2 n k) * w (ix2 e k)) + b (ix1 e)

/-- The largest logit of token `n`: the fold of `max` from `-∞` over the experts. -/
def top (n : Fin 32768) : EReal := (Finset.univ : Finset (Fin 64)).fold max ⊥ (fun e => logit x w b n e)

/-- The unnormalized weight of expert `e` for token `n`: `exp (logit - top)`. -/
def weight (n : Fin 32768) (e : Fin 64) : EReal := Ideal.exp (logit x w b n e - top x w b n)

/-- The normalizer of token `n`: the sum of its 64 weights. -/
def mass (n : Fin 32768) : EReal := ∑ e : Fin 64, weight x w b n e

/-- The probability of expert `e` for token `n`. -/
def prob (n : Fin 32768) (e : Fin 64) : EReal := Ideal.div (weight x w b n e) (mass x w b n)

/-- The array of logits, token-major. -/
def logits : Scores.Idx → EReal := fun i => logit x w b (i 0) (i 1)

/-- The array of probabilities, token-major. -/
def probs : Scores.Idx → EReal := fun i => prob x w b (i 0) (i 1)

end Cert.Router

end
-- ==== Proof.LibHostReduceMax.lean ====
/-
  The host's reduction with a maximum body over one axis, read at an index.
-/
import Idealize.ShloMosaic.PureOps.Ideal
import Idealize.ShloMosaic.PureOps.Ideal.Laws
import Idealize.ShloMosaic.PureOps.Reduce

noncomputable section

namespace Cert.ReferenceIdeal.RefValue

open Idealize.ShloMosaic

/-- The host's reduction with a maximum body over ONE axis, from an initial value that is −∞, read at an index: the
    fold of max from ⊥ over that axis's coordinates (the reduced index with the coordinate inserted). -/
theorem hostReduce_max_single {s t u : Shape} {a : Fin s.rank} (x : s.Idx → EReal) (init : u.Idx → EReal)
    (h' : s.ReducesTo [a] t) (h : s.Reduces [a] t) (hu : 0 < u.numel) (j : t.Idx) (hinit : init (Shape.Idx.first hu) = ⊥) :
    Host.reduce (FloatOps.maximumf (F := Ideal) (φ := .f32)) x init h' hu j
      = (Finset.univ : Finset (Fin (s.size a))).fold max ⊥ (fun k => x (h.lift j k)) := by
  rw [Host.reduce_eq_fold_single (FloatOps.maximumf (F := Ideal) (φ := .f32)) x init h' h hu j, hinit]
  rfl

end Cert.ReferenceIdeal.RefValue

end
-- ==== Proof.RefRead.lean ====
/-
  The reference program computes the router's specification.

  Its logits are a host matrix product of the tokens with the transposed weights plus the broadcast bias:
  at `(n, e)` the sum over `k` of `x[n,k] · w[e,k]`, plus `b[e]`. Its softmax takes the row maximum by a host
  reduction from `-∞` (read here as the fold of `max` over the experts), takes the maximum of that with `-∞`
  once more (the identity on the extended reals), subtracts, exponentiates, sums each row from `0`
  (`0 + Σ = Σ`) and divides.
-/
import proofs.«149913_g87428354278092_cont_9to1c4b_691_26_alg».proof.Proof.Gen.ReferenceIdeal.Read
import proofs.«149913_g87428354278092_cont_9to1c4b_691_26_alg».proof.Proof.Spec
import proofs.«149913_g87428354278092_cont_9to1c4b_691_26_alg».proof.Proof.LibHostReduceMax

noncomputable section

namespace Cert.Router.Ref

open Idealize.ShloMosaic Idealize.ShloMosaic.ValueIdx
open Cert.ReferenceIdeal Cert.ReferenceIdeal.Gen Cert.ReferenceIdeal.Read Cert.Router

variable (x : FVec Ideal S32768x768 .f32) (w : FVec Ideal S64x768 .f32) (b : FVec Ideal S64 .f32)

/-- The reference's logit at `(n, e)` is the specification's. -/
theorem v4_apply (n : Fin 32768) (e : Fin 64) : val_main_v4 (F := Ideal) x w b (ix2 n e) = logit x w b n e := by
  have e1 : ∀ k : Fin 768, lidx_main_v1 (ix2 n e) k = ix2 n k := fun k => funext fun a => Fin.ext (by
    match a with | ⟨0, _⟩ => rfl | ⟨1, _⟩ => rfl)
  have e2 : ∀ k : Fin 768, idx_main_v0 (ridx_main_v1 (ix2 n e) k) = ix2 e k := fun k => funext fun a => Fin.ext (by
    match a with | ⟨0, _⟩ => rfl | ⟨1, _⟩ => rfl)
  have e3 : idx_main_v2 (idx_main_v3 (ix2 n e)) = ix1 e := funext fun a => Fin.ext (by
    match a with | ⟨0, _⟩ => rfl)
  rw [val_main_v4_apply, val_main_v1_apply, val_main_v3_apply, val_main_v2_apply, e3]
  simp only [val_main_v0_apply, e1, e2]
  rfl

/-- The reference's logits are the specification's array. -/
theorem v4_eq : val_main_v4 (F := Ideal) x w b = logits x w b := by
  funext i
  obtain ⟨n, e, rfl⟩ : ∃ (n : Fin 32768) (e : Fin 64), i = ix2 n e := ⟨i 0, i 1, eq_ix2 i⟩
  exact v4_apply x w b n e

/-- The row maximum the reference subtracts is the specification's largest logit. -/
theorem v7_apply (n : Fin 32768) : val_main_v7 (F := Ideal) x w b (ix1 n) = top x w b n := by
  rw [val_main_v7_apply, val_main_v6_apply, val_main_cst_0_apply]
  unfold val_main_v5
  rw [Cert.ReferenceIdeal.RefValue.hostReduce_max_single (val_main_v4 (F := Ideal) x w b) (val_main_cst (F := Ideal))
    reducesTo_S32768x64_S32768_d1 (by decide) h_S_ (ix1 n) (by
      rw [val_main_cst_apply]; show Ideal.ofBits .f32 0xFF800000#32 = ⊥; simp [Ideal.ofBits, Ideal.ieee])]
  show max (Ideal.ofBits .f32 0xFF800000#32) _ = _
  rw [show Ideal.ofBits .f32 0xFF800000#32 = (⊥ : EReal) by simp [Ideal.ofBits, Ideal.ieee], max_bot_left]
  unfold top
  refine congrArg (fun f => (Finset.univ : Finset (Fin 64)).fold max ⊥ f) (funext fun e => ?_)
  exact (congrArg (val_main_v4 (F := Ideal) x w b) (show _ = ix2 n e from funext fun a => Fin.ext (by
    match a with | ⟨0, _⟩ => rfl | ⟨1, _⟩ => rfl))).trans (v4_apply x w b n e)

/-- The reference's unnormalized weight at `(n, e)`. -/
theorem v11_apply (n : Fin 32768) (e : Fin 64) : val_main_v11 (F := Ideal) x w b (ix2 n e) = weight x w b n e := by
  have e1 : idx_main_v8 (idx_main_v9 (ix2 n e)) = ix1 n := funext fun a => Fin.ext (by
    match a with | ⟨0, _⟩ => rfl)
  rw [val_main_v11_apply, val_main_v10_apply, val_main_v9_apply, val_main_v8_apply, e1, v7_apply, v4_apply]
  rfl

/-- The reference's normalizer of row `n`. -/
theorem v12_apply (n : Fin 32768) : val_main_v12 (F := Ideal) x w b (ix1 n) = mass x w b n := by
  have e1 : ∀ k : Fin 64, idx_main_v12 (ix1 n) k = ix2 n k := fun k => funext fun a => Fin.ext (by
    match a with | ⟨0, _⟩ => rfl | ⟨1, _⟩ => rfl)
  rw [val_main_v12_apply, val_main_cst_1_apply]
  simp only [e1, v11_apply]
  show Ideal.ofBits .f32 0x00000000#32 + _ = _
  rw [Ideal.ofBits_zero_f32, zero_add]
  rfl

/-- The reference's probability at `(n, e)`. -/
theorem v15_apply (n : Fin 32768) (e : Fin 64) : val_main_v15 (F := Ideal) x w b (ix2 n e) = prob x w b n e := by
  have e1 : idx_main_v13 (idx_main_v14 (ix2 n e)) = ix1 n := funext fun a => Fin.ext (by
    match a with | ⟨0, _⟩ => rfl)
  rw [val_main_v15_apply, val_main_v14_apply, val_main_v13_apply, e1, v12_apply, v11_apply]
  rfl

/-- The reference's probabilities are the specification's array. -/
theorem v15_eq : val_main_v15 (F := Ideal) x w b = probs x w b := by
  funext i
  obtain ⟨n, e, rfl⟩ : ∃ (n : Fin 32768) (e : Fin 64), i = ix2 n e := ⟨i 0, i 1, eq_ix2 i⟩
  exact v15_apply x w b n e

end Cert.Router.Ref

end
-- ==== Proof.LibKeepdims.lean ====
/-
  Two layout operations of a keep-dimensions reduction read at an index of a rank-2 array: a column `[a, 1]` broadcast
  along its unit axis to `[a, b]`, and a vector `[a]` cast to the column `[a, 1]`. (The row form `[1, b] → [a, b]` and
  the leading-unit-axis casts are the library's, Lib/ValueLayout.lean.)
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, u)`, the vector's entry `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    rw [Shape.rowMajor_val_one, Shape.rowMajor_val_two]
    show p.val = p.val * 1 + u.val
    have := u.isLt
    omega)

/-- A column `[a, 1]` cast to the vector `[a]` reads, at `p`, the column's entry of row `p`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) :=
  shapeCast_apply v h _ _ (by
    rw [Shape.rowMajor_val_two, Shape.rowMajor_val_one]
    show p.val * 1 + 0 = p.val
    omega)

end Idealize.ShloMosaic.ValueIdx
-- ==== Proof.TileScores.lean ====
/-
  What the kernel body computes on one tile of 4096 tokens, read at an index.

  The body holds the tile transposed: experts along the rows, the tile's tokens along the columns. Its first stored
  value is, at `(e, r)`, the inner product of expert `e`'s weight row with token `r`'s row (a matrix product into a zero
  accumulator, read as a plain sum) plus the bias column's entry `e` spread along the row. Its second stored value is the
  softmax down each column: the column's maximum (a reduction from `-∞` over the expert axis, the fold of `max`), spread back
  over the rows, subtracted, exponentiated, summed down the column (a reduction from `0`) and divided.
-/
import proofs.«149913_g87428354278092_cont_9to1c4b_691_26_alg».proof.Proof.Gen.KernelIdeal.Skeleton
import proofs.«149913_g87428354278092_cont_9to1c4b_691_26_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.Router.Tile

open Idealize.ShloMosaic Idealize.ShloMosaic.ValueIdx
open Cert.KernelIdeal Cert.KernelIdeal.Gen

/-- The matrix product's dimension numbers: both operands contract their width axis. -/
abbrev Dot := dot_S64x768_S4096x768_S64x4096_1_1_0_0_n_n

/-! ## The matrix product at an index -/

theorem lhs_row (i : S64x4096.Idx) (q : Dot.contr.Idx) : (Dot.lhsIdx i q 0).val = (i 0).val := by
  unfold DotDims.lhsIdx
  rw [dif_neg (show ¬(0 : Fin S64x768.rank) ∈ Dot.lhsBatch by decide), dif_pos (show (0 : Fin S64x768.rank) ∈ Dot.lhsNonContracting by decide)]
  rfl
theorem lhs_col (i : S64x4096.Idx) (q : Dot.contr.Idx) : (Dot.lhsIdx i q 1).val = (q ⟨0, by decide⟩).val :=
  Dot.lhsIdx_val_of_single rfl i q
theorem rhs_row (i : S64x4096.Idx) (q : Dot.contr.Idx) : (Dot.rhsIdx i q 0).val = (i 1).val := by
  unfold DotDims.rhsIdx
  rw [dif_neg (show ¬(0 : Fin S4096x768.rank) ∈ Dot.rhsBatch by decide), dif_pos (show (0 : Fin S4096x768.rank) ∈ Dot.rhsNonContracting by decide)]
  rfl
theorem rhs_col (i : S64x4096.Idx) (q : Dot.contr.Idx) : (Dot.rhsIdx i q 1).val = (q ⟨0, by decide⟩).val :=
  Dot.rhsIdx_val_of_single rfl i q

/-- The weights times the transposed tile, into zero, at `(e, r)`: `Σ_k w[e,k] · x[r,k]`. -/
theorem product_apply (x0 : FVec Ideal S4096x768 .f32) (x1 : FVec Ideal S64x768 .f32) (e : Fin 64) (r : Fin 4096) :
    matmul Dot none x1 x0 (constant S64x4096 .f32 0x00000000#32) (ix2 e r) = ∑ k : Fin 768, x1 (ix2 e k) * x0 (ix2 r k) := by
  simp only [matmul]
  rw [Ideal.matmul_constant_zero_apply, ← Equiv.sum_comp (contrEquiv1 Dot 768 rfl rfl).symm]
  refine Finset.sum_congr rfl fun k _ => ?_
  have hk := contrEquiv1_symm_val Dot 768 rfl rfl k
  have el : Dot.lhsIdx (ix2 e r) ((contrEquiv1 Dot 768 rfl rfl).symm k) = ix2 e k := funext fun a => Fin.ext (by
    match a with
    | ⟨0, _⟩ => exact lhs_row _ _
    | ⟨1, _⟩ => exact (lhs_col _ _).trans hk)
  have er : Dot.rhsIdx (ix2 e r) ((contrEquiv1 Dot 768 rfl rfl).symm k) = ix2 r k := funext fun a => Fin.ext (by
    match a with
    | ⟨0, _⟩ => exact rhs_row _ _
    | ⟨1, _⟩ => exact (rhs_col _ _).trans hk)
  rw [el, er]

/-! ## The first stored value: the tile's logits -/

/-- The logit of the tile's token `r` for expert `e`, from the three loaded blocks. -/
def tileLogit (x0 : FVec Ideal S4096x768 .f32) (x1 : FVec Ideal S64x768 .f32) (x3 : FVec Ideal S64x1 .f32) (e : Fin 64) (r : Fin 4096) : EReal :=
  (∑ k : Fin 768, x0 (ix2 r k) * x1 (ix2 e k)) + x3 (ix2 e (0 : Fin 1))

/-- The first stored value at `(e, r)` (the product's factors swapped: multiplication commutes). -/
theorem logits_apply (x0 : FVec Ideal S4096x768 .f32) (x1 : FVec Ideal S64x768 .f32) (x3 : FVec Ideal S64x1 .f32) (e : Fin 64) (r : Fin 4096) :
    k0_pay1 (F := Ideal) x0 x1 x3 (ix2 e r) = tileLogit x0 x1 x3 e r := by
  unfold k0_pay1 tileLogit
  refine congrArg₂ (· + ·) ((product_apply x0 x1 e r).trans (Finset.sum_congr rfl fun k _ => mul_comm _ _)) ?_
  rw [shapeCast_self]
  exact broadcastTo_a1_ab_apply x3 _ e r

/-! ## The second stored value: the softmax down each column -/

/-- A column's maximum: the reduction from `-∞` over the expert axis is the fold of `max` over the experts. -/
theorem colMax_apply (v : FVec Ideal S64x4096 .f32) (r : Fin 4096) :
    multiReduction .maximumf [0] S4096 v 0xFF800000#32 reduces_S64x4096_S4096 (.inl rfl) rfl (ix1 r)
      = (Finset.univ : Finset (Fin 64)).fold max ⊥ (fun e => v (ix2 e r)) := by
  refine (Ideal.multiReduction_maximumf_single v 0xFF800000#32 reduces_S64x4096_S4096 (.inl rfl) rfl (ix1 r)).trans ?_
  have hb : FloatOps.ofBits (F := Ideal) .f32 0xFF800000#32 = (⊥ : EReal) := by
    show Ideal.ofBits .f32 0xFF800000#32 = ⊥
    simp [Ideal.ofBits, Ideal.ieee]
  have hl : (v ∘ reduces_S64x4096_S4096.lift (ix1 r)) = fun e : Fin 64 => v (ix2 e r) := funext fun e =>
    congrArg v (funext fun a => Fin.ext (by match a with | ⟨0, _⟩ => rfl | ⟨1, _⟩ => rfl))
  rw [hb, hl]
  rfl

/-- A column's sum: the reduction from `0` over the expert axis is the sum over the experts. -/
theorem colSum_apply (v : FVec Ideal S64x4096 .f32) (r : Fin 4096) :
    multiReduction .add [0] S4096 v 0x00000000#32 reduces_S64x4096_S4096 (.inl rfl) rfl (ix1 r) = ∑ e : Fin 64, v (ix2 e r) := by
  refine (Ideal.multiReduction_add_single v 0x00000000#32 reduces_S64x4096_S4096 (.inl rfl) rfl (ix1 r)).trans ?_
  exact Finset.sum_congr rfl fun e _ => congrArg v (funext fun a => Fin.ext (by match a with | ⟨0, _⟩ => rfl | ⟨1, _⟩ => rfl))

/-- One value per column, made a row and spread over the 64 rows, reads at `(e, r)` the column's value. -/
theorem spread_apply (u : FVec Ideal S4096 .f32) (e : Fin 64) (r : Fin 4096) :
    broadcastTo S64x4096 (shapeCast S1x4096 u shapeCasts_S4096_S1x4096) broadcasts_S1x4096_S64x4096 (ix2 e r) = u (ix1 r) :=
  (broadcastTo_1b_ab_apply _ _ e r).trans (shapeCast_a_1a_apply u _ (0 : Fin 1) r)

/-- Each entry minus its column's maximum, exponentiated. -/
def shifted (l : FVec Ideal S64x4096 .f32) : FVec Ideal S64x4096 .f32 :=
  exp (subf l (broadcastTo S64x4096 (shapeCast S1x4096 (multiReduction .maximumf [0] S4096 l 0xFF800000#32 reduces_S64x4096_S4096 (.inl rfl) rfl)
    shapeCasts_S4096_S1x4096) broadcasts_S1x4096_S64x4096))

/-- That, divided by its column's sum. -/
def normalized (l : FVec Ideal S64x4096 .f32) : FVec Ideal S64x4096 .f32 :=
  divf (shifted l) (broadcastTo S64x4096 (shapeCast S1x4096 (multiReduction .add [0] S4096 (shifted l) 0x00000000#32 reduces_S64x4096_S4096 (.inl rfl) rfl)
    shapeCasts_S4096_S1x4096) broadcasts_S1x4096_S64x4096)

/-- The second stored value is the column softmax of the first. -/
theorem probs_eq (x0 : FVec Ideal S4096x768 .f32) (x1 : FVec Ideal S64x768 .f32) (x3 : FVec Ideal S64x1 .f32) :
    k0_pay2 (F := Ideal) x0 x1 x3 = normalized (k0_pay1 (F := Ideal) x0 x1 x3) := rfl

theorem shifted_apply (l : FVec Ideal S64x4096 .f32) (e : Fin 64) (r : Fin 4096) :
    shifted l (ix2 e r) = Ideal.exp (l (ix2 e r) - (Finset.univ : Finset (Fin 64)).fold max ⊥ (fun e' => l (ix2 e' r))) :=
  congrArg (fun t => Ideal.exp (l (ix2 e r) - t)) ((spread_apply _ e r).trans (colMax_apply l r))

theorem normalized_apply (l : FVec Ideal S64x4096 .f32) (e : Fin 64) (r : Fin 4096) :
    normalized l (ix2 e r)
      = Ideal.div (Ideal.exp (l (ix2 e r) - (Finset.univ : Finset (Fin 64)).fold max ⊥ (fun e' => l (ix2 e' r))))
          (∑ e'' : Fin 64, Ideal.exp (l (ix2 e'' r) - (Finset.univ : Finset (Fin 64)).fold max ⊥ (fun e' => l (ix2 e' r)))) :=
  congrArg₂ Ideal.div (shifted_apply l e r)
    ((spread_apply _ e r).trans ((colSum_apply (shifted l) r).trans (Finset.sum_congr rfl fun e'' _ => shifted_apply l e'' r)))

end Cert.Router.Tile

end
-- ==== Proof.TileToArray.lean ====
/-
  From tiles to the two whole arrays the kernel region writes.

  The grid has 8 points; point `t` reads tokens `4096·t … 4096·t + 4095` (all 768 columns), all of the weights and the
  whole bias column, and writes columns `4096·t … 4096·t + 4095` (all 64 rows) of each of the two expert-major output
  arrays. So column `r` of tile `t` is token `4096·t + r`, the 8 written blocks tile each output array, and each array
  ends holding one function of the arguments: the logits, respectively the probabilities, of the specification, read
  expert-major. The bias column the region finds is the host's reshape of the bias vector.
-/
import proofs.«149913_g87428354278092_cont_9to1c4b_691_26_alg».proof.Proof.Gen.KernelIdeal.Frame
import proofs.«149913_g87428354278092_cont_9to1c4b_691_26_alg».proof.Proof.Spec
import proofs.«149913_g87428354278092_cont_9to1c4b_691_26_alg».proof.Proof.TileScores
import proofs.«149913_g87428354278092_cont_9to1c4b_691_26_alg».proof.Proof.LibKeepdims
import Idealize.ShloMosaic.Lib.Pipeline.Value
import Idealize.ShloMosaic.Lib.StableHlo.Run
import Idealize.ShloMosaic.Lib.Tactic

noncomputable section

namespace Cert.Router.Ker

open Idealize.ShloMosaic Idealize.ShloMosaic.TcCoe Idealize.SL.Sem Idealize.ShloMosaic.ValueIdx
open Idealize.ShloMosaic.Pipeline (Dat)
open Cert.KernelIdeal Cert.KernelIdeal.Gen Cert.Router

variable (m : (ℓ : Loc nD τ sig) → Buf (Elt Ideal) ℓ)

/-- The three arguments as launched, on core `c`. -/
abbrev argX (c : Dev nD) : FVec Ideal S32768x768 .f32 := m ((c : Thread nD τ).loc main_arg0)
abbrev argW (c : Dev nD) : FVec Ideal S64x768 .f32 := m ((c : Thread nD τ).loc main_arg1)
abbrev argB (c : Dev nD) : FVec Ideal S64 .f32 := m ((c : Thread nD τ).loc main_arg2)

/-- The specification's logits, expert-major. -/
def logitsT (x : Tokens.Idx → EReal) (w : Weights.Idx → EReal) (b : Bias.Idx → EReal) : S64x32768.Idx → EReal :=
  fun i => logit x w b (i 1) (i 0)

/-- The specification's probabilities, expert-major. -/
def probsT (x : Tokens.Idx → EReal) (w : Weights.Idx → EReal) (b : Bias.Idx → EReal) : S64x32768.Idx → EReal :=
  fun i => prob x w b (i 1) (i 0)

theorem hz : (![0, 0] : Fin 2 → Nat) = fun _ => 0 := funext fun a => by fin_cases a <;> rfl

/-! ## The index maps, decided over the grid -/

/-- The token tile moves with the output tiles' column block; the weights and the bias stay at block 0; the output
    tiles' row block is 0 and their column block is below 8. -/
theorem idx_facts : ∀ t : Fin cfg0.N,
    win0_0.index t (0 : Fin 2) = win0_3.index t (1 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_4.index t (0 : Fin 2) = 0
    ∧ win0_4.index t (1 : Fin 2) = win0_3.index t (1 : Fin 2) ∧ win0_3.index t (1 : Fin 2) ≤ 7 :=
  (by decide +kernel : ∀ t : Fin grid0.N, _)

/-- Every column block is some point's. -/
theorem idx_onto : ∀ q : Fin 8, ∃ t : Fin cfg0.N, win0_3.index t (1 : Fin 2) = q.val :=
  (by decide +kernel : ∀ q : Fin 8, ∃ t : Fin grid0.N, win0_3.index t (1 : Fin 2) = q.val)

/-- The token that column `r` of the tile at point `t` holds. -/
def tokenOf (t : Fin cfg0.N) (r : Fin 4096) : Fin 32768 :=
  ⟨win0_3.index t (1 : Fin 2) * 4096 + 1 * r.val, by
    have h := (idx_facts t).2.2.2.2.2.2.2.2.2
    have := r.isLt
    omega⟩

/-! ## The three input blocks at a point -/

/-- Row `r` of the token tile at point `t` is the row of token `tokenOf t r`. -/
theorem tokens_at (c : Dev nD) (t : Fin cfg0.N) (r : Fin 4096) (k : Fin 768) :
    (iblk m c 0 t : FVec Ideal S4096x768 .f32) (ix2 r k) = argX m c (ix2 (tokenOf t r) k) := by
  obtain ⟨e0, e1, -⟩ := idx_facts t
  unfold iblk
  rw [View.read_apply]
  show V m c main_arg0 (((cfg0.win 0).blk t).view.emb (ix2 r k)) = _
  rw [V_main_arg0]
  refine congrArg (argX m c) (funext fun a => Fin.ext ?_)
  match a with
  | ⟨0, _⟩ => show win0_0.index t (0 : Fin 2) * 4096 + 1 * r.val = win0_3.index t (1 : Fin 2) * 4096 + 1 * r.val; omega
  | ⟨1, _⟩ => show win0_0.index t (1 : Fin 2) * 768 + 1 * k.val = k.val; omega

/-- The weights block is the whole weights array at every point. -/
theorem weights_at (c : Dev nD) (t : Fin cfg0.N) (e : Fin 64) (k : Fin 768) :
    (iblk m c 1 t : FVec Ideal S64x768 .f32) (ix2 e k) = argW m c (ix2 e k) := by
  obtain ⟨-, -, e2, e3, -⟩ := idx_facts t
  unfold iblk
  rw [View.read_apply]
  show V m c main_arg1 (((cfg0.win 1).blk t).view.emb (ix2 e k)) = _
  rw [V_main_arg1]
  refine congrArg (argW m c) (funext fun a => Fin.ext ?_)
  match a with
  | ⟨0, _⟩ => show win0_1.index t (0 : Fin 2) * 64 + 1 * e.val = e.val; omega
  | ⟨1, _⟩ => show win0_1.index t (1 : Fin 2) * 768 + 1 * k.val = k.val; omega

/-- The bias column as the region finds it: the host's reshape of the bias vector. -/
theorem bias_col (c : Dev nD) :
    (V m c main_v0 : S64x1.Idx → EReal) = shapeCast S64x1 (argB m c) shapeCasts_S64_S64x1 := by
  show StableHlo.after hostOps0 (fun b => m (c, b)) (Proc.devRef .tc main_v0) = _
  after_results
  rfl

/-- The bias block is the whole bias column at every point: entry `e` is the bias of expert `e`. -/
theorem bias_at (c : Dev nD) (t : Fin cfg0.N) (e : Fin 64) :
    (iblk m c 2 t : FVec Ideal S64x1 .f32) (ix2 e (0 : Fin 1)) = argB m c (ix1 e) := by
  obtain ⟨-, -, -, -, e4, e5, -⟩ := idx_facts t
  unfold iblk
  rw [View.read_apply]
  show (V m c main_v0 : S64x1.Idx → EReal) (((cfg0.win 2).blk t).view.emb (ix2 e (0 : Fin 1))) = _
  rw [bias_col]
  refine Eq.trans (congrArg (shapeCast S64x1 (argB m c) shapeCasts_S64_S64x1) (show _ = ix2 e (0 : Fin 1) from funext fun a => Fin.ext ?_)) (shapeCast_a_a1_apply (argB m c) _ e 0)
  match a with
  | ⟨0, _⟩ => show win0_2.index t (0 : Fin 2) * 64 + 1 * e.val = e.val; omega
  | ⟨1, _⟩ => show win0_2.index t (1 : Fin 2) * 1 + 1 * 0 = 0; omega

/-- So the first stored value at `(e, r)` of the tile at point `t` is the specification's logit of token `tokenOf t r`
    for expert `e`. -/
theorem tile_logit (c : Dev nD) (t : Fin cfg0.N) (e : Fin 64) (r : Fin 4096) :
    k0_pay1 (F := Ideal) (iblk m c 0 t) (iblk m c 1 t) (iblk m c 2 t) (ix2 e r)
      = logit (argX m c) (argW m c) (argB m c) (tokenOf t r) e := by
  refine (Tile.logits_apply (iblk m c 0 t) (iblk m c 1 t) (iblk m c 2 t) e r).trans ?_
  unfold Tile.tileLogit logit
  refine congrArg₂ (· + ·) (Finset.sum_congr rfl fun k _ => ?_) (bias_at m c t e)
  rw [tokens_at, weights_at]

/-! ## What each point writes back -/

/-- Entry `(e, r)` of either output tile at point `t` lands at `(e, tokenOf t r)` of its array. -/
theorem emb3 (t : Fin cfg0.N) (e : Fin 64) (r : Fin 4096) :
    ((cfg0.win 3).blk t).view.emb (ix2 e r) = ix2 e (tokenOf t r) := by
  obtain ⟨-, -, -, -, -, -, e6, -⟩ := idx_facts t
  refine funext fun a => Fin.ext ?_
  match a with
  | ⟨0, _⟩ => show win0_3.index t (0 : Fin 2) * 64 + 1 * e.val = e.val; omega
  | ⟨1, _⟩ => rfl
theorem emb4 (t : Fin cfg0.N) (e : Fin 64) (r : Fin 4096) :
    ((cfg0.win 4).blk t).view.emb (ix2 e r) = ix2 e (tokenOf t r) := by
  obtain ⟨-, -, -, -, -, -, -, e7, e8, -⟩ := idx_facts t
  refine funext fun a => Fin.ext ?_
  match a with
  | ⟨0, _⟩ => show win0_4.index t (0 : Fin 2) * 64 + 1 * e.val = e.val; omega
  | ⟨1, _⟩ => show win0_4.index t (1 : Fin 2) * 4096 + 1 * r.val = win0_3.index t (1 : Fin 2) * 4096 + 1 * r.val; omega

/-- What point `t` writes back to the first output array is its block of the expert-major logits. -/
theorem flushed_logits (c : Dev nD) (t : Fin cfg0.N) :
    (dats m 0 c).flushed 3 t = ((cfg0.win 3).blk t).view.read (Elt Ideal) (logitsT (argX m c) (argW m c) (argB m c)) := by
  show (cfg0.win 3).cut (grid0.coords t) ((dats m 0 c).after 3 t) = _
  rw [after0_3]
  unfold out0_3
  rw [View.canon_unit_zero hz]
  simp only [View.ld_unit_zero (S := S4096x768) hz, View.ld_unit_zero (S := S64x768) hz, View.ld_unit_zero (S := S64x1) hz]
  refine funext fun (y : S64x4096.Idx) => ?_
  obtain ⟨e, r, rfl⟩ : ∃ (e : Fin 64) (r : Fin 4096), y = ix2 e r := ⟨y 0, y 1, eq_ix2 y⟩
  show k0_pay1 (F := Ideal) (iblk m c 0 t) (iblk m c 1 t) (iblk m c 2 t) (ix2 e r)
    = logitsT (argX m c) (argW m c) (argB m c) (((cfg0.win 3).blk t).view.emb (ix2 e r))
  rw [emb3]
  exact tile_logit m c t e r

/-- What point `t` writes back to the second output array is its block of the expert-major probabilities. -/
theorem flushed_probs (c : Dev nD) (t : Fin cfg0.N) :
    (dats m 0 c).flushed 4 t = ((cfg0.win 4).blk t).view.read (Elt Ideal) (probsT (argX m c) (argW m c) (argB m c)) := by
  show (cfg0.win 4).cut (grid0.coords t) ((dats m 0 c).after 4 t) = _
  rw [after0_4]
  unfold out0_4
  rw [View.canon_unit_zero hz]
  simp only [View.ld_unit_zero (S := S4096x768) hz, View.ld_unit_zero (S := S64x768) hz, View.ld_unit_zero (S := S64x1) hz]
  refine funext fun (y : S64x4096.Idx) => ?_
  obtain ⟨e, r, rfl⟩ : ∃ (e : Fin 64) (r : Fin 4096), y = ix2 e r := ⟨y 0, y 1, eq_ix2 y⟩
  show k0_pay2 (F := Ideal) (iblk m c 0 t) (iblk m c 1 t) (iblk m c 2 t) (ix2 e r)
    = probsT (argX m c) (argW m c) (argB m c) (((cfg0.win 4).blk t).view.emb (ix2 e r))
  rw [emb4, Tile.probs_eq]
  refine (Tile.normalized_apply (k0_pay1 (F := Ideal) (iblk m c 0 t) (iblk m c 1 t) (iblk m c 2 t)) e r).trans ?_
  simp only [tile_logit]
  rfl

/-! ## The blocks tile the arrays -/

theorem mem_blk3 (t : Fin cfg0.N) (i : S64x32768.Idx) :
    i ∈ ((cfg0.win 3).blk t).view.set ↔ ∀ a : Fin 2, win0_3.index t a * S64x4096.size a ≤ (i a).val ∧ (i a).val < win0_3.index t a * S64x4096.size a + S64x4096.size a := by
  show i ∈ ((View.whole main_v1_0).slice (win0_3.rect t)).set ↔ _
  rw [View.set_slice_whole, Rect.mem_set_unit]
  exact Iff.rfl
theorem mem_blk4 (t : Fin cfg0.N) (i : S64x32768.Idx) :
    i ∈ ((cfg0.win 4).blk t).view.set ↔ ∀ a : Fin 2, win0_4.index t a * S64x4096.size a ≤ (i a).val ∧ (i a).val < win0_4.index t a * S64x4096.size a + S64x4096.size a := by
  show i ∈ ((View.whole main_v1_1).slice (win0_4.rect t)).set ↔ _
  rw [View.set_slice_whole, Rect.mem_set_unit]
  exact Iff.rfl

/-- Every index of the first output array is in the block of the point whose column block is its column over 4096. -/
theorem cover3 (i : S64x32768.Idx) : ∃ t : Fin cfg0.N, (cfg0.win 3).flush t = true ∧ i ∈ ((cfg0.win 3).blk t).view.set := by
  have hi0 : (i 0).val < 64 := (i 0).isLt
  have hi1 : (i 1).val < 32768 := (i 1).isLt
  obtain ⟨t, ht⟩ := idx_onto ⟨(i 1).val / 4096, by omega⟩
  obtain ⟨-, -, -, -, -, -, e6, -⟩ := idx_facts t
  have q1 : win0_3.index t (1 : Fin 2) = (i 1).val / 4096 := ht
  refine ⟨t, flush0_3 t, ?_⟩
  rw [mem_blk3]
  intro a
  match a with
  | ⟨0, _⟩ => show win0_3.index t (0 : Fin 2) * 64 ≤ (i 0).val ∧ (i 0).val < win0_3.index t (0 : Fin 2) * 64 + 64; omega
  | ⟨1, _⟩ => show win0_3.index t (1 : Fin 2) * 4096 ≤ (i 1).val ∧ (i 1).val < win0_3.index t (1 : Fin 2) * 4096 + 4096; omega
theorem cover4 (i : S64x32768.Idx) : ∃ t : Fin cfg0.N, (cfg0.win 4).flush t = true ∧ i ∈ ((cfg0.win 4).blk t).view.set := by
  have hi0 : (i 0).val < 64 := (i 0).isLt
  have hi1 : (i 1).val < 32768 := (i 1).isLt
  obtain ⟨t, ht⟩ := idx_onto ⟨(i 1).val / 4096, by omega⟩
  obtain ⟨-, -, -, -, -, -, -, e7, e8, -⟩ := idx_facts t
  have q1 : win0_3.index t (1 : Fin 2) = (i 1).val / 4096 := ht
  refine ⟨t, flush0_4 t, ?_⟩
  rw [mem_blk4]
  intro a
  match a with
  | ⟨0, _⟩ => show win0_4.index t (0 : Fin 2) * 64 ≤ (i 0).val ∧ (i 0).val < win0_4.index t (0 : Fin 2) * 64 + 64; omega
  | ⟨1, _⟩ => show win0_4.index t (1 : Fin 2) * 4096 ≤ (i 1).val ∧ (i 1).val < win0_4.index t (1 : Fin 2) * 4096 + 4096; omega

/-! ## The two arrays after the region -/

theorem final_logits (c : Dev nD) : (dats m 0 c).arrAt 3 cfg0.N = logitsT (argX m c) (argW m c) (argB m c) :=
  (dats m 0 c).arrAt_eq_of_cover 3 _ (fun t _ => flushed_logits m c t) cover3

theorem final_probs (c : Dev nD) : (dats m 0 c).arrAt 4 cfg0.N = probsT (argX m c) (argW m c) (argB m c) :=
  (dats m 0 c).arrAt_eq_of_cover 4 _ (fun t _ => flushed_probs m c t) cover4

end Cert.Router.Ker

end
-- ==== Proof.KernelRun.lean ====
/-
  The idealized kernel program's run, read.

  After the region the host transposes each expert-major output array into the token-major result. A transpose read at
  `(n, e)` is its operand at `(e, n)`, so the two results are the specification's logits and probabilities. The three
  argument arrays end as launched.
-/
import proofs.«149913_g87428354278092_cont_9to1c4b_691_26_alg».proof.Proof.TileToArray
import Idealize.ShloMosaic.Lib.ValueLayout

noncomputable section

namespace Cert.Router.Ker

open Idealize.ShloMosaic Idealize.ShloMosaic.TcCoe Idealize.SL.Sem Idealize.ShloMosaic.ValueIdx
open Idealize.ShloMosaic.Pipeline (Dat)
open Cert.KernelIdeal Cert.KernelIdeal.Gen Cert.Router

variable (m : (ℓ : Loc nD τ sig) → Buf (Elt Ideal) ℓ) (ρ : Dev nD → PrngReg)

/-- The expert-major logits transposed are the token-major logits. -/
theorem transpose_logitsT (x : Tokens.Idx → EReal) (w : Weights.Idx → EReal) (b : Bias.Idx → EReal) :
    transpose S32768x64 [1, 0] (logitsT x w b) transposes_S64x32768_S32768x64_1_0 = logits x w b := by
  funext i
  obtain ⟨n, e, rfl⟩ : ∃ (n : Fin 32768) (e : Fin 64), i = ix2 n e := ⟨i 0, i 1, eq_ix2 i⟩
  exact (transpose_ix2_apply (logitsT x w b) transposes_S64x32768_S32768x64_1_0 n e).trans rfl

/-- The expert-major probabilities transposed are the token-major probabilities. -/
theorem transpose_probsT (x : Tokens.Idx → EReal) (w : Weights.Idx → EReal) (b : Bias.Idx → EReal) :
    transpose S32768x64 [1, 0] (probsT x w b) transposes_S64x32768_S32768x64_1_0 = probs x w b := by
  funext i
  obtain ⟨n, e, rfl⟩ : ∃ (n : Fin 32768) (e : Fin 64), i = ix2 n e := ⟨i 0, i 1, eq_ix2 i⟩
  exact (transpose_ix2_apply (probsT x w b) transposes_S64x32768_S32768x64_1_0 n e).trans rfl

/-- The first result after the host lines that follow the region. -/
theorem tail_logits (c : Dev nD) :
    (Pipeline.afterTail₀ cfgs (dats m) 0 (V0 m) [hostOps1] c main_v2 : S32768x64.Idx → EReal)
      = logits (argX m c) (argW m c) (argB m c) := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.devRef .tc main_v1_0)
      = logitsT (argX m c) (argW m c) (argB m c) from
    (Pipeline.withArrays_arr spec0 launch0.win.arr_inj c _ _ 3).trans (final_logits m c)]
  exact transpose_logitsT _ _ _

/-- The second result after the host lines that follow the region. -/
theorem tail_probs (c : Dev nD) :
    (Pipeline.afterTail₀ cfgs (dats m) 0 (V0 m) [hostOps1] c main_v3 : S32768x64.Idx → EReal)
      = probs (argX m c) (argW m c) (argB m c) := by
  unfold Pipeline.afterTail₀
  show StableHlo.after hostOps1 _ (Proc.devRef .tc main_v3) = _
  after_results
  rw [show Pipeline.withArrays (cfgs 0).spec c (V0 m c) (fun w => (dats m 0 c).arrAt w (cfgs 0).N) (Proc.devRef .tc main_v1_1)
      = probsT (argX m c) (argW m c) (argB m c) from
    (Pipeline.withArrays_arr spec0 launch0.win.arr_inj c _ _ 4).trans (final_probs m c)]
  exact transpose_probsT _ _ _

/-- Every weakly fair execution of the idealized kernel program terminates with its two results at the specification's
    logits and probabilities of the arguments, and the arguments unchanged. -/
theorem run : θ_run defs (onTc (τ := τ) (main (F := Ideal))) ⟨m, fun _ => 0, ρ⟩ fun r => ∀ c : Dev nD,
      r.2.mem ((c.tc : Thread nD τ).loc main_v2) = logits (argX m c) (argW m c) (argB m c)
      ∧ r.2.mem ((c.tc : Thread nD τ).loc main_v3) = probs (argX m c) (argW m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v2 (Pipeline.mem_restRefs_of main_v2 (by decide) (by decide))).trans (tail_logits m c),
      ((h c).2 main_v3 (Pipeline.mem_restRefs_of main_v3 (by decide) (by decide))).trans (tail_probs m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.Router.Ker

end
-- ==== Proof.lean ====
/-
  A mixture-of-experts router: logits `x · wᵀ + b` over 32768 tokens and 64 experts, and their row softmax.

  The kernel computes both results transposed (experts along the rows), one tile of 4096 tokens per grid point: a
  matrix product of the weights with the transposed tile plus the bias column, then the softmax down each column, each
  tile written to its block of columns; the host transposes the two arrays back. The reference computes the matrix
  product of the tokens with the transposed weights plus the broadcast bias, and jax's softmax along the rows.

  On the extended reals the two agree entry by entry with no condition on the inputs: the inner products have the same
  terms in the same order with the two factors of each product swapped (multiplication commutes), a row's maximum is the
  same fold of `max` from `-∞` over the experts (the reference's further maximum with `-∞` changes nothing), and the
  exponentials, the sums over the experts from `0` and the quotients are the same operations in the same order. Both
  programs' results are stated as one function of the arguments (Proof/Spec.lean): the reference's by reading its run one
  operation at a time (Proof/RefRead.lean), the kernel's by reading what the body stores on a tile (Proof/TileScores.lean),
  that the eight tiles fill each output array (Proof/TileToArray.lean), and the host transposes after the region
  (Proof/KernelRun.lean). The idealization rewrote no operation, so it has nothing to preserve; the three programs' runs
  terminate with the arguments unchanged by the generated frames and the generated reference run.
-/
import proofs.«149913_g87428354278092_cont_9to1c4b_691_26_alg».proof.Defs
import proofs.«149913_g87428354278092_cont_9to1c4b_691_26_alg».proof.Proof.Gen.Kernel
import proofs.«149913_g87428354278092_cont_9to1c4b_691_26_alg».proof.Proof.Gen.Kernel.Skeleton
import proofs.«149913_g87428354278092_cont_9to1c4b_691_26_alg».proof.Proof.Gen.Kernel.Launch
import proofs.«149913_g87428354278092_cont_9to1c4b_691_26_alg».proof.Proof.Gen.Kernel.Points
import proofs.«149913_g87428354278092_cont_9to1c4b_691_26_alg».proof.Proof.Gen.Kernel.Frame
import proofs.«149913_g87428354278092_cont_9to1c4b_691_26_alg».proof.Proof.Gen.KernelIdeal
import proofs.«149913_g87428354278092_cont_9to1c4b_691_26_alg».proof.Proof.Gen.KernelIdeal.Skeleton
import proofs.«149913_g87428354278092_cont_9to1c4b_691_26_alg».proof.Proof.Gen.KernelIdeal.Launch
import proofs.«149913_g87428354278092_cont_9to1c4b_691_26_alg».proof.Proof.Gen.KernelIdeal.Points
import proofs.«149913_g87428354278092_cont_9to1c4b_691_26_alg».proof.Proof.Gen.KernelIdeal.Frame
import proofs.«149913_g87428354278092_cont_9to1c4b_691_26_alg».proof.Proof.Gen.ReferenceIdeal
import proofs.«149913_g87428354278092_cont_9to1c4b_691_26_alg».proof.Proof.Gen.Pre_finite_inputs
import proofs.«149913_g87428354278092_cont_9to1c4b_691_26_alg».proof.Proof.Gen.ReferenceIdeal.Run
import proofs.«149913_g87428354278092_cont_9to1c4b_691_26_alg».proof.Proof.Gen.ReferenceIdeal.Read
import Idealize.ShloMosaic.Adequacy
import Idealize.ShloMosaic.Init
import proofs.«149913_g87428354278092_cont_9to1c4b_691_26_alg».proof.Proof.RefRead
import proofs.«149913_g87428354278092_cont_9to1c4b_691_26_alg».proof.Proof.KernelRun

noncomputable section

namespace Cert.Proof

open Idealize.ShloMosaic Idealize.SL.Sem Cert.Router

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From arguments that agree, both programs end with the specification's logits and probabilities of them. -/
theorem algebraic : Cert.algebraic_KernelIdeal_ReferenceIdeal := by
  intro m ρ m' ρ' _ hagree
  refine ⟨fun c => logits (Ker.argX m c) (Ker.argW m c) (Ker.argB m c),
    fun c => probs (Ker.argX m c) (Ker.argW m c) (Ker.argB m c), Ker.run m ρ, ?_⟩
  refine (θ_run Cert.ReferenceIdeal.defs _ _).mono (fun _ h c => ?_) (Cert.ReferenceIdeal.Value.run (F := Ideal) m' ρ')
  obtain ⟨h4, h15, ha0, ha1, ha2⟩ := h c
  obtain ⟨g0, g1, g2⟩ := hagree c
  refine ⟨h4.trans ?_, h15.trans ?_, ha0, ha1, ha2⟩
  · rw [Cert.ReferenceIdeal.Read.val_main_v4_eq, Ref.v4_eq, g0, g1, g2]
  · rw [Cert.ReferenceIdeal.Read.val_main_v15_eq, Ref.v15_eq, g0, g1, g2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
